-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x100000x256 : Shape := ⟨3, ![1, 100000, 256]⟩
abbrev S1600000 : Shape := ⟨1, ![1600000]⟩
abbrev S128x256 : Shape := ⟨2, ![128, 256]⟩
abbrev S128 : Shape := ⟨1, ![128]⟩
abbrev S_ : Shape := ⟨0, ![]⟩

class Facts : Prop where
  bcast_S_S1x100000x256 : S_.BroadcastsInDim S1x100000x256 (![] : Fin 0 → Fin S1x100000x256.rank)
  reducesTo_S1x100000x256_S_d0_1_2 : S1x100000x256.ReducesTo [0, 1, 2] S_
  h_S_ : 0 < S_.numel
  bcast_S_S1600000 : S_.BroadcastsInDim S1600000 (![] : Fin 0 → Fin S1600000.rank)
  reducesTo_S1600000_S_d0 : S1600000.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part1 {F : FTy → Type} [FloatOps F] (main_arg6 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S_ .f32 := Host.absf main_arg6
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S1x100000x256 .f32) (main_arg1 : IVec S1600000 32) (main_arg2 : IVec S1600000 32) (main_arg3 : FVec F S1600000 .f32) (main_arg4 : FVec F S128x256 .f32) (main_arg5 : FVec F S128 .f32) (main_arg6 : FVec F S_ .f32) : IVec S_ 1 :=
  let main_v0 : FVec F S1x100000x256 .f32 := Host.absf main_arg0
  let main_cst : FVec F S_ .f32 := constant S_ .f32 0x7F800000#32
  let main_v1 : FVec F S1x100000x256 .f32 := broadcastInDim S1x100000x256 ![] bcast_S_S1x100000x256 main_cst
  let main_v2 : IVec S1x100000x256 1 := cmpf .olt main_v0 main_v1
  let main_c : IVec S_ 1 := constantI S_ 1 1#1
  let main_v3 : IVec S_ 1 := (fun x v => Host.reduce IntOp.andi x v reducesTo_S1x100000x256_S_d0_1_2 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_v13 main_v16
-- ==== Kernel.lean ====
abbrev S1x100000x256 : Shape := ⟨3, ![1, 100000, 256]⟩
abbrev S1600000 : Shape := ⟨1, ![1600000]⟩
abbrev S128x256 : Shape := ⟨2, ![128, 256]⟩
abbrev S128 : Shape := ⟨1, ![128]⟩
abbrev S_ : Shape := ⟨0, ![]⟩
abbrev S100000x256 : Shape := ⟨2, ![100000, 256]⟩
abbrev S256x128 : Shape := ⟨2, ![256, 128]⟩
abbrev S100000x128 : Shape := ⟨2, ![100000, 128]⟩
abbrev S10000x256 : Shape := ⟨2, ![10000, 256]⟩
abbrev S10000x128 : Shape := ⟨2, ![10000, 128]⟩
abbrev S1600000x1 : Shape := ⟨2, ![1600000, 1]⟩
abbrev S1600000x128 : Shape := ⟨2, ![1600000, 128]⟩
abbrev S1x128 : Shape := ⟨2, ![1, 128]⟩
abbrev S1x100000x128 : Shape := ⟨3, ![1, 100000, 128]⟩

abbrev nBuf : Space → Nat
  | .hbm => 37
  | .vmem => 5
  | .smem => 0
  | _ => 0

abbrev bufTy : (tb : Table) → Fin (tcTables nBuf tb) → BufTy
  | .hbm, ⟨0, _⟩ => ⟨S1x100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x256, .f32⟩
  | .hbm, ⟨5, _⟩ => ⟨S128, .f32⟩
  | .hbm, ⟨6, _⟩ => ⟨S_, .f32⟩
  | .hbm, ⟨7, _⟩ => ⟨S100000x256, .f32⟩
  | .hbm, ⟨8, _⟩ => ⟨S256x128, .f32⟩
  | .hbm, ⟨9, _⟩ => ⟨S100000x128, .bf16⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .bf16⟩
  | .hbm, ⟨19, _⟩ => ⟨S1600000x128, .f32⟩
  | .hbm, ⟨20, _⟩ => ⟨S1600000x1, .f32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S_, .f32⟩
  | .hbm, ⟨31, _⟩ => ⟨S100000x128, .f32⟩
  | .hbm, ⟨32, _⟩ => ⟨S100000x128, .i1⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S1x100000x128, .f32⟩
  | .local _ .vmem, ⟨0, _⟩ => ⟨S10000x256, .f32⟩
  | .local _ .vmem, ⟨1, _⟩ => ⟨S10000x256, .f32⟩
  | .local _ .vmem, ⟨2, _⟩ => ⟨S256x128, .f32⟩
  | .local _ .vmem, ⟨3, _⟩ => ⟨S10000x128, .bf16⟩
  | .local _ .vmem, ⟨4, _⟩ => ⟨S10000x128, .bf16⟩
  | _, _ => ⟨S1x100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x100000x256_S100000x256 : S1x100000x256.ShapeCasts S100000x256
  transposes_S128x256_S256x128_1_0 : S128x256.Transposes [1, 0] S256x128
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S10000x128_S10000x128_0_0 : ∀ a, (![0, 0] : Fin 2 → Nat) a + S10000x128.size a ≤ S10000x128.size a
  h_S10000x128 : 0 < S10000x128.numel
  packedbf16_S10000x128_S10000x128_0_0 : (Rect.unit (s := S10000x128) ![0, 0] S10000x128.size inb_S10000x128_S10000x128_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000x128_S1x100000x128_1_2 : S100000x128.BroadcastsInDim S1x100000x128 (![1, 2] : Fin 2 → Fin S1x100000x128.rank)
  dot_S10000x256_S256x128_S10000x128_1_0_0_1_n_n_wf : DotDims.WF S10000x256 S256x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .bf16 = 32 ∨ (Rect.block (s := S100000x128) S10000x128.size (cc0_transform_2 i) (hinb0_2 i)).WholeWords (EltTy.packing .bf16)

variable [Facts₀]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_v0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x100000x256 : Shape := ⟨3, ![1, 100000, 256]⟩
abbrev S1600000 : Shape := ⟨1, ![1600000]⟩
abbrev S128x256 : Shape := ⟨2, ![128, 256]⟩
abbrev S128 : Shape := ⟨1, ![128]⟩
abbrev S_ : Shape := ⟨0, ![]⟩
abbrev S1x100000x128 : Shape := ⟨3, ![1, 100000, 128]⟩
abbrev S100000x128 : Shape := ⟨2, ![100000, 128]⟩
abbrev S1600000x1 : Shape := ⟨2, ![1600000, 1]⟩
abbrev S1600000x128 : Shape := ⟨2, ![1600000, 128]⟩
abbrev S1x1x128 : Shape := ⟨3, ![1, 1, 128]⟩

abbrev nBuf : Space → Nat
  | .hbm => 35
  | .vmem => 0
  | .smem => 0
  | _ => 0

abbrev bufTy : (tb : Table) → Fin (tcTables nBuf tb) → BufTy
  | .hbm, ⟨0, _⟩ => ⟨S1x100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x256, .f32⟩
  | .hbm, ⟨5, _⟩ => ⟨S128, .f32⟩
  | .hbm, ⟨6, _⟩ => ⟨S_, .f32⟩
  | .hbm, ⟨7, _⟩ => ⟨S1x100000x128, .f32⟩
  | .hbm, ⟨8, _⟩ => ⟨S100000x128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x1, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x100000x128, .f32⟩
  | .hbm, ⟨26, _⟩ => ⟨S1x1x128, .f32⟩
  | .hbm, ⟨27, _⟩ => ⟨S1x100000x128, .f32⟩
  | .hbm, ⟨28, _⟩ => ⟨S1x100000x128, .f32⟩
  | .hbm, ⟨29, _⟩ => ⟨S_, .f32⟩
  | .hbm, ⟨30, _⟩ => ⟨S1x100000x128, .f32⟩
  | .hbm, ⟨31, _⟩ => ⟨S1x100000x128, .i1⟩
  | .hbm, ⟨32, _⟩ => ⟨S1x100000x128, .f32⟩
  | .hbm, ⟨33, _⟩ => ⟨S1x100000x128, .f32⟩
  | .hbm, ⟨34, _⟩ => ⟨S1x100000x128, .f32⟩
  | _, _ => ⟨S1x100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  shapeCasts_S1x100000x128_S100000x128 : S1x100000x128.ShapeCasts S100000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x128_S1x100000x128_1_2 : S100000x128.BroadcastsInDim S1x100000x128 (![1, 2] : Fin 2 → Fin S1x100000x128.rank)
  bcast_S128_S1x1x128_2 : S128.BroadcastsInDim S1x1x128 (![2] : Fin 1 → Fin S1x1x128.rank)
  bcast_S1x1x128_S1x100000x128_0_1_2 : S1x1x128.BroadcastsInDim S1x100000x128 (![0, 1, 2] : Fin 3 → Fin S1x100000x128.rank)
  bcast_S_S1x100000x128 : S_.BroadcastsInDim S1x100000x128 (![] : Fin 0 → Fin S1x100000x128.rank)
  dot_S1x100000x256_S128x256_S1x100000x128_2_1_01_0_n_n_wf : DotDims.WF S1x100000x256 S128x256 S1x100000x128 [2] [1] [0, 1] [0] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S1x100000x256_S128x256_S1x100000x128_2_1_01_0_n_n : DotDims S1x100000x256 S128x256 S1x100000x128 where
  lhsContracting := [2]
  rhsContracting := [1]
  lhsNonContracting := [0, 1]
  rhsNonContracting := [0]
  lhsBatch := []
  rhsBatch := []
  wf := dot_S1x100000x256_S128x256_S1x100000x128_2_1_01_0_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Projection.lean ====
/-
  The linear projection as one function of whole matrices.

  For a matrix `a` with 100000 rows and 256 columns and a matrix `b` with 256 rows and 128 columns, entry (n, o) of the
  product is the sum, over the 256 shared positions k, of a(n, k) · b(k, o).  The sum is taken in the extended reals,
  where addition is commutative and associative, so the order and the grouping of the 256 terms do not matter and no
  finiteness of the entries is needed to speak of it.  The same formula over a block of 10000 rows is what one grid
  point of the tiled product computes; `rowsProduct` states it for any number of rows at once.
-/
import Idealize.ShloMosaic.Lib.ValueIdx
import Idealize.ShloMosaic.PureOps.Ideal

noncomputable section

namespace Cert.Gcn

open Idealize.ShloMosaic Idealize.ShloMosaic.ValueIdx

/-- Entry (n, o) of the product of an R×256 matrix with a 256×128 matrix: the sum over k of a(n, k) · b(k, o). -/
def rowsProduct (R : Nat) (a : (⟨2, ![R, 256]⟩ : Shape).Idx → EReal) (b : (⟨2, ![256, 128]⟩ : Shape).Idx → EReal) :
    (⟨2, ![R, 128]⟩ : Shape).Idx → EReal :=
  fun i => ∑ k : Fin 256, a (ix2 (n0 := R) (n1 := 256) (i 0) k) * b (ix2 (n0 := 256) (n1 := 128) k (i 1))

/-- Read at explicit coordinates. -/
theorem rowsProduct_apply (R : Nat) (a : (⟨2, ![R, 256]⟩ : Shape).Idx → EReal) (b : (⟨2, ![256, 128]⟩ : Shape).Idx → EReal)
    (p : Fin R) (q : Fin 128) :
    rowsProduct R a b (ix2 p q) = ∑ k : Fin 256, a (ix2 p k) * b (ix2 k q) := rfl

/-- Two entries of two products agree when, position by position, the factors they sum agree. -/
theorem rowsProduct_congr {R R' : Nat} (a : (⟨2, ![R, 256]⟩ : Shape).Idx → EReal) (a' : (⟨2, ![R', 256]⟩ : Shape).Idx → EReal)
    (b b' : (⟨2, ![256, 128]⟩ : Shape).Idx → EReal) (i : (⟨2, ![R, 128]⟩ : Shape).Idx) (i' : (⟨2, ![R', 128]⟩ : Shape).Idx)
    (ha : ∀ k : Fin 256, a (ix2 (n0 := R) (n1 := 256) (i 0) k) = a' (ix2 (n0 := R') (n1 := 256) (i' 0) k))
    (hb : ∀ k : Fin 256, b (ix2 (n0 := 256) (n1 := 128) k (i 1)) = b' (ix2 (n0 := 256) (n1 := 128) k (i' 1))) :
    rowsProduct R a b i = rowsProduct R' a' b' i' := by
  unfold rowsProduct
  exact Finset.sum_congr rfl fun k _ => by rw [ha k, hb k]

end Cert.Gcn

end
-- ==== Proof.BlockProduct.lean ====
/-
  What the body of the tiled product computes at one grid point, entry by entry.

  The body loads a block of 10000 rows of the left matrix and the whole right matrix, changes both to a narrower float
  format, multiplies them into a zero accumulator and changes the result's format again.  On extended reals a change of
  format is the identity and the zero word is the number 0, so entry (p, q) of what it stores is the sum over the 256
  shared positions k of left(p, k) · right(k, q): the block of 10000 rows of the product.
-/
import proofs.«171808_j18949395709960_2_alg».proof.Proof.Gen.KernelIdeal.Skeleton
import proofs.«171808_j18949395709960_2_alg».proof.Proof.Projection
import Idealize.ShloMosaic.Lib.Pipeline.Value
import Idealize.ShloMosaic.Lib.ValueIdx
import Idealize.ShloMosaic.PureOps.Ideal.Laws

noncomputable section

namespace Cert.Gcn

open Idealize.ShloMosaic Idealize.ShloMosaic.ValueIdx Cert.KernelIdeal Cert.KernelIdeal.Gen

/-- The left operand's row at an output entry is the entry's row, whatever the shared position. -/
theorem blockLeftRow (j : S10000x128.Idx) (s : dot_S10000x256_S256x128_S10000x128_1_0_0_1_n_n.contr.Idx) :
    (dot_S10000x256_S256x128_S10000x128_1_0_0_1_n_n.lhsIdx j s 0).val = (j 0).val := by
  unfold DotDims.lhsIdx
  rw [dif_neg (show ¬(0 : Fin S10000x256.rank) ∈ dot_S10000x256_S256x128_S10000x128_1_0_0_1_n_n.lhsBatch by decide),
    dif_pos (show (0 : Fin S10000x256.rank) ∈ dot_S10000x256_S256x128_S10000x128_1_0_0_1_n_n.lhsNonContracting by decide)]
  rfl

/-- The right operand's column at an output entry is the entry's column, whatever the shared position. -/
theorem blockRightCol (j : S10000x128.Idx) (s : dot_S10000x256_S256x128_S10000x128_1_0_0_1_n_n.contr.Idx) :
    (dot_S10000x256_S256x128_S10000x128_1_0_0_1_n_n.rhsIdx j s 1).val = (j 1).val := by
  unfold DotDims.rhsIdx
  rw [dif_neg (show ¬(1 : Fin S256x128.rank) ∈ dot_S10000x256_S256x128_S10000x128_1_0_0_1_n_n.rhsBatch by decide),
    dif_pos (show (1 : Fin S256x128.rank) ∈ dot_S10000x256_S256x128_S10000x128_1_0_0_1_n_n.rhsNonContracting by decide)]
  rfl

/-- The left operand's index at output entry (p, q) and shared position k is (p, k). -/
theorem blockLeftIdx (p : Fin 10000) (q : Fin 128) (k : Fin 256) :
    dot_S10000x256_S256x128_S10000x128_1_0_0_1_n_n.lhsIdx (ix2 p q)
      ((contrEquiv1 dot_S10000x256_S256x128_S10000x128_1_0_0_1_n_n 256 rfl rfl).symm k) = ix2 p k := by
  have hk := contrEquiv1_symm_val dot_S10000x256_S256x128_S10000x128_1_0_0_1_n_n 256 rfl rfl k
  refine funext fun a => Fin.ext ?_
  match a with
  | ⟨0, _⟩ => exact blockLeftRow (ix2 p q) _
  | ⟨1, _⟩ => exact (dot_S10000x256_S256x128_S10000x128_1_0_0_1_n_n.lhsIdx_val_of_single rfl (ix2 p q) _).trans hk

/-- The right operand's index at output entry (p, q) and shared position k is (k, q). -/
theorem blockRightIdx (p : Fin 10000) (q : Fin 128) (k : Fin 256) :
    dot_S10000x256_S256x128_S10000x128_1_0_0_1_n_n.rhsIdx (ix2 p q)
      ((contrEquiv1 dot_S10000x256_S256x128_S10000x128_1_0_0_1_n_n 256 rfl rfl).symm k) = ix2 k q := by
  have hk := contrEquiv1_symm_val dot_S10000x256_S256x128_S10000x128_1_0_0_1_n_n 256 rfl rfl k
  refine funext fun a => Fin.ext ?_
  match a with
  | ⟨0, _⟩ => exact (dot_S10000x256_S256x128_S10000x128_1_0_0_1_n_n.rhsIdx_val_of_single rfl (ix2 p q) _).trans hk
  | ⟨1, _⟩ => exact blockRightCol (ix2 p q) _

/-- Entry (p, q) of the body's stored value is the sum over k of left(p, k) · right(k, q). -/
theorem blockProduct_apply (x0 : Vec Ideal S10000x256 .f32) (x1 : Vec Ideal S256x128 .f32) (p : Fin 10000) (q : Fin 128) :
    k0_pay1 (F := Ideal) x0 x1 (ix2 p q) = ∑ k : Fin 256, x0 (ix2 p k) * x1 (ix2 k q) := by
  unfold k0_pay1
  refine (Ideal.matmul_constant_zero_apply dot_S10000x256_S256x128_S10000x128_1_0_0_1_n_n none _ _ (ix2 p q)).trans ?_
  rw [← Equiv.sum_comp (contrEquiv1 dot_S10000x256_S256x128_S10000x128_1_0_0_1_n_n 256 rfl rfl).symm]
  refine Finset.sum_congr rfl fun k _ => ?_
  rw [blockLeftIdx p q k, blockRightIdx p q k]
  show shapeCast S10000x256 x0 shapeCasts_S10000x256_S10000x256 (ix2 p k) * shapeCast S256x128 x1 shapeCasts_S256x128_S256x128 (ix2 k q) = _
  rw [shapeCast_self, shapeCast_self]

/-- The body's stored value is the 10000-row product of its two loaded blocks. -/
theorem blockProduct (x0 : Vec Ideal S10000x256 .f32) (x1 : Vec Ideal S256x128 .f32) :
    k0_pay1 (F := Ideal) x0 x1 = rowsProduct 10000 x0 x1 := by
  funext j
  obtain ⟨p, q, rfl⟩ : ∃ (p : Fin 10000) (q : Fin 128), j = ix2 p q := ⟨j 0, j 1, eq_ix2 j⟩
  exact blockProduct_apply x0 x1 p q

end Cert.Gcn

end
-- ==== Proof.ProjectedArray.lean ====
/-
  The array the tiled product leaves: the whole product.

  The grid has ten points; point t reads rows 10000·t … 10000·t + 9999 of the left matrix and the whole right matrix, and
  writes back rows 10000·t … 10000·t + 9999 of the output.  By the block formula, what point t writes back is exactly
  that block of rows of the whole 100000-row product; row r lies in the block of point r / 10000, so the ten blocks
  cover the output, and the array after the region is the whole product of the two arrays the region finds.  Those two
  arrays are the first argument with its leading unit axis dropped and the weight matrix transposed.
-/
import proofs.«171808_j18949395709960_2_alg».proof.Proof.Gen.KernelIdeal.Frame
import proofs.«171808_j18949395709960_2_alg».proof.Proof.BlockProduct
import Idealize.ShloMosaic.Lib.Pipeline.Value
import Idealize.ShloMosaic.Lib.StableHlo.Run

set_option maxRecDepth 16384

noncomputable section

namespace Cert.Gcn

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

theorem zeroOffsets : (![0, 0] : Fin 2 → Nat) = fun _ => 0 := funext fun a => by fin_cases a <;> rfl

/-- How the three windows move over the grid: the left block and the output block have the same row-block number, at
    most 9, and every other block number is 0. -/
theorem blockNumbers : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row-block number 0 … 9 is some point's. -/
theorem blockNumbers_onto : ∀ (b : Fin 10), ∃ t : Fin cfg0.N, win0_2.index t = ![b.val, 0] :=
  (by decide +kernel : ∀ (b : Fin 10), ∃ t : Fin grid0.N, win0_2.index t = ![b.val, 0])

/-- What point `t` writes back is block `t` of the whole product of the arrays the region finds. -/
theorem writtenBack_eq (c : Dev nD) (t : Fin cfg0.N) :
    (dats m 0 c).flushed 2 t
      = ((cfg0.win 2).blk t).view.read (Elt Ideal) (rowsProduct 100000 (V m c main_v0) (V m c main_v1)) := by
  show (cfg0.win 2).cut (grid0.coords t) ((dats m 0 c).after 2 t) = _
  rw [after0_2]
  unfold out0_2
  rw [View.canon_unit_zero zeroOffsets]
  simp only [View.ld_unit_zero (S := S10000x256) zeroOffsets, View.ld_unit_zero (S := S256x128) zeroOffsets]
  rw [blockProduct]
  obtain ⟨e0, e1, e2, e3, e4, e5⟩ := blockNumbers t
  funext j
  show rowsProduct 10000 (iblk m c 0 t) (iblk m c 1 t) j
    = rowsProduct 100000 (V m c main_v0) (V m c main_v1) (((cfg0.win 2).blk t).view.emb j)
  refine rowsProduct_congr (iblk m c 0 t) (V m c main_v0) (iblk m c 1 t) (V m c main_v1) j (((cfg0.win 2).blk t).view.emb j)
    (fun k => ?_) (fun k => ?_)
  · show V m c main_v0 (((cfg0.win 0).blk t).view.emb (ix2 (j 0) k)) = V m c main_v0 (ix2 ((((cfg0.win 2).blk t).view.emb j) 0) k)
    have h0 : ((cfg0.win 0).blk t).view.emb (ix2 (j 0) k) = ix2 ((((cfg0.win 2).blk t).view.emb j) 0) k := by
      funext a; apply Fin.ext
      match a with
      | ⟨0, _⟩ => show win0_0.index t (0 : Fin 2) * 10000 + 1 * (j 0).val = win0_2.index t (0 : Fin 2) * 10000 + 1 * (j 0).val; omega
      | ⟨1, _⟩ => show win0_0.index t (1 : Fin 2) * 256 + 1 * k.val = k.val; omega
    rw [h0]
    rfl
  · show V m c main_v1 (((cfg0.win 1).blk t).view.emb (ix2 k (j 1))) = V m c main_v1 (ix2 k ((((cfg0.win 2).blk t).view.emb j) 1))
    have h1 : ((cfg0.win 1).blk t).view.emb (ix2 k (j 1)) = ix2 k ((((cfg0.win 2).blk t).view.emb j) 1) := by
      funext a; apply Fin.ext
      match a with
      | ⟨0, _⟩ => show win0_1.index t (0 : Fin 2) * 256 + 1 * k.val = k.val; omega
      | ⟨1, _⟩ => show win0_1.index t (1 : Fin 2) * 128 + 1 * (j 1).val = win0_2.index t (1 : Fin 2) * 128 + 1 * (j 1).val; omega
    rw [h1]
    rfl

/-- An entry of the output array is in point `t`'s block iff each coordinate is in the block's range on its axis. -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v2).slice (win0_2.rect t)).set ↔ _
  rw [View.set_slice_whole, Rect.mem_set_unit]
  exact Iff.rfl

/-- Every entry of the output array is in the block of the point whose row-block number is its row divided by 10000. -/
theorem blocks_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := blockNumbers_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after the region is the whole product of the two arrays the region finds. -/
theorem productArray (c : Dev nD) :
    (dats m 0 c).arrAt 2 cfg0.N = rowsProduct 100000 (V m c main_v0) (V m c main_v1) :=
  (dats m 0 c).arrAt_eq_of_cover 2 (rowsProduct 100000 (V m c main_v0) (V m c main_v1))
    (fun t _ => writtenBack_eq m c t) blocks_cover

/-- The left array the region finds is the first argument with its leading unit axis dropped. -/
theorem leftArray (c : Dev nD) :
    (V m c main_v0 : S100000x256.Idx → EReal)
      = shapeCast S100000x256 (m ((c : Thread nD τ).loc main_arg0)) shapeCasts_S1x100000x256_S100000x256 := by
  show StableHlo.after hostOps0 (fun b => m (c, b)) (Proc.devRef .tc main_v0) = _
  after_results <;> rfl

/-- The right array the region finds is the weight matrix transposed. -/
theorem rightArray (c : Dev nD) :
    (V m c main_v1 : S256x128.Idx → EReal)
      = transpose S256x128 [1, 0] (m ((c : Thread nD τ).loc main_arg4)) transposes_S128x256_S256x128_1_0 := by
  show StableHlo.after hostOps0 (fun b => m (c, b)) (Proc.devRef .tc main_v1) = _
  after_results <;> rfl

end Cert.Gcn

end
-- ==== Proof.Tail.lean ====
/-
  The graph aggregation and the activation that follow the projection.

  Given projected features (one row of 128 numbers per node), every one of the 1600000 edges takes the row of its source
  node — a negative source index is first shifted up by the number of nodes, and the row is fetched as a one-row slice —,
  scales it by the edge's weight, and adds it into the row of its destination node of an array that starts at zero.
  To the aggregated array the bias is added along every row, and an entry x for which x ≥ 0 fails is replaced by
  alpha · x.  The result carries a leading axis of length one.

  Entry (0, n, o) of the result is therefore a function of entry (n, o) of the aggregated array, entry o of the bias and
  the scalar alpha only; `biasedPRelu_apply` says which.  How the aggregation itself sums its edges is never opened: both
  programs apply the same aggregation, so it is carried as one function of the projected features.
-/
import proofs.«171808_j18949395709960_2_alg».proof.Proof.Gen.KernelIdeal
import Idealize.ShloMosaic.Lib.Pipeline.Value
import Idealize.ShloMosaic.Lib.ValueIdx
import Idealize.ShloMosaic.PureOps.Ideal

noncomputable section

namespace Cert.Gcn

open Idealize.ShloMosaic Idealize.ShloMosaic.ValueIdx Cert.KernelIdeal Cert.KernelIdeal.Gen

section Generic

variable {F : FTy → Type} [FloatOps F]

/-- The source indices as the row fetch takes them: a negative index shifted up by 100000, one index per edge. -/
def wrappedSources (src : (⟨S1600000, .i32⟩ : BufTy).Contents (Elt F)) : (⟨S1600000x1, .i32⟩ : BufTy).Contents (Elt F) :=
  (broadcastInDim S1600000x1 ![0] bcast_S1600000_S1600000x1_0 : (⟨S1600000, .i32⟩ : BufTy).Contents (Elt F) → (⟨S1600000x1, .i32⟩ : BufTy).Contents (Elt F))
    ((select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F))
      ((cmpi .slt : (⟨S1600000, .i32⟩ : BufTy).Contents (Elt F) → (⟨S1600000, .i32⟩ : BufTy).Contents (Elt F) → (⟨S1600000, .i1⟩ : BufTy).Contents (Elt F)) src
        ((broadcastInDim S1600000 ![] bcast_S_S1600000 : (⟨S_, .i32⟩ : BufTy).Contents (Elt F) → (⟨S1600000, .i32⟩ : BufTy).Contents (Elt F)) (constantI S_ 32 0#32)))
      ((addi : (⟨S1600000, .i32⟩ : BufTy).Contents (Elt F) → (⟨S1600000, .i32⟩ : BufTy).Contents (Elt F) → (⟨S1600000, .i32⟩ : BufTy).Contents (Elt F)) src
        ((broadcastInDim S1600000 ![] bcast_S_S1600000 : (⟨S_, .i32⟩ : BufTy).Contents (Elt F) → (⟨S1600000, .i32⟩ : BufTy).Contents (Elt F)) (constantI S_ 32 100000#32)))
      src)

/-- The aggregated array: into zeros, at each edge's destination row, the edge's source row of `f` times its weight. -/
def neighbourSum (f : (⟨S100000x128, .bf16⟩ : BufTy).Contents (Elt F))
    (src dst : (⟨S1600000, .i32⟩ : BufTy).Contents (Elt F)) (w : (⟨S1600000, .f32⟩ : BufTy).Contents (Elt F)) :
    (⟨S100000x128, .f32⟩ : BufTy).Contents (Elt F) :=
  ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F))
    ((broadcastInDim S100000x128 ![] bcast_S_S100000x128 : (⟨S_, .f32⟩ : BufTy).Contents (Elt F) → (⟨S100000x128, .f32⟩ : BufTy).Contents (Elt F)) (constant S_ .f32 0x00000000#32))
    ((broadcastInDim S1600000x1 ![0] bcast_S1600000_S1600000x1_0 : (⟨S1600000, .i32⟩ : BufTy).Contents (Elt F) → (⟨S1600000x1, .i32⟩ : BufTy).Contents (Elt F)) dst)
    ((mulf : (⟨S1600000x128, .f32⟩ : BufTy).Contents (Elt F) → (⟨S1600000x128, .f32⟩ : BufTy).Contents (Elt F) → (⟨S1600000x128, .f32⟩ : BufTy).Contents (Elt F))
      (((extf .f32 · bitsLt_bf16_f32) : (⟨S1600000x128, .bf16⟩ : BufTy).Contents (Elt F) → (⟨S1600000x128, .f32⟩ : BufTy).Contents (Elt F))
        (((fun x i => Host.gather gather_S100000x128_S1600000x1_S1600000x128_1_0_n_n_0_1_1128 x i) : (⟨S100000x128, .bf16⟩ : BufTy).Contents (Elt F) → (⟨S1600000x1, .i32⟩ : BufTy).Contents (Elt F) → (⟨S1600000x128, .bf16⟩ : BufTy).Contents (Elt F)) f (wrappedSources src)))
      ((broadcastInDim S1600000x128 ![0, 1] bcast_S1600000x1_S1600000x128_0_1 : (⟨S1600000x1, .f32⟩ : BufTy).Contents (Elt F) → (⟨S1600000x128, .f32⟩ : BufTy).Contents (Elt F))
        ((broadcastInDim S1600000x1 ![0] bcast_S1600000_S1600000x1_0 : (⟨S1600000, .f32⟩ : BufTy).Contents (Elt F) → (⟨S1600000x1, .f32⟩ : BufTy).Contents (Elt F)) w)))

/-- The bias repeated along every row. -/
def biasRows (bias : (⟨S128, .f32⟩ : BufTy).Contents (Elt F)) : (⟨S100000x128, .f32⟩ : BufTy).Contents (Elt F) :=
  (broadcastInDim S100000x128 ![0, 1] bcast_S1x128_S100000x128_0_1 : (⟨S1x128, .f32⟩ : BufTy).Contents (Elt F) → (⟨S100000x128, .f32⟩ : BufTy).Contents (Elt F))
    ((broadcastInDim S1x128 ![1] bcast_S128_S1x128_1 : (⟨S128, .f32⟩ : BufTy).Contents (Elt F) → (⟨S1x128, .f32⟩ : BufTy).Contents (Elt F)) bias)

/-- The aggregated array plus the bias along every row. -/
def shifted (A : (⟨S100000x128, .f32⟩ : BufTy).Contents (Elt F)) (bias : (⟨S128, .f32⟩ : BufTy).Contents (Elt F)) : (⟨S100000x128, .f32⟩ : BufTy).Contents (Elt F) :=
  (addf : (⟨S100000x128, .f32⟩ : BufTy).Contents (Elt F) → (⟨S100000x128, .f32⟩ : BufTy).Contents (Elt F) → (⟨S100000x128, .f32⟩ : BufTy).Contents (Elt F)) A (biasRows bias)

/-- Where the shifted array is ≥ 0. -/
def nonneg (A : (⟨S100000x128, .f32⟩ : BufTy).Contents (Elt F)) (bias : (⟨S128, .f32⟩ : BufTy).Contents (Elt F)) : (⟨S100000x128, .i1⟩ : BufTy).Contents (Elt F) :=
  (cmpf .oge : (⟨S100000x128, .f32⟩ : BufTy).Contents (Elt F) → (⟨S100000x128, .f32⟩ : BufTy).Contents (Elt F) → (⟨S100000x128, .i1⟩ : BufTy).Contents (Elt F)) (shifted A bias)
    ((broadcastInDim S100000x128 ![] bcast_S_S100000x128 : (⟨S_, .f32⟩ : BufTy).Contents (Elt F) → (⟨S100000x128, .f32⟩ : BufTy).Contents (Elt F)) (constant S_ .f32 0x00000000#32))

/-- alpha times the shifted array. -/
def scaled (A : (⟨S100000x128, .f32⟩ : BufTy).Contents (Elt F)) (bias : (⟨S128, .f32⟩ : BufTy).Contents (Elt F)) (alpha : (⟨S_, .f32⟩ : BufTy).Contents (Elt F)) : (⟨S100000x128, .f32⟩ : BufTy).Contents (Elt F) :=
  (mulf : (⟨S100000x128, .f32⟩ : BufTy).Contents (Elt F) → (⟨S100000x128, .f32⟩ : BufTy).Contents (Elt F) → (⟨S100000x128, .f32⟩ : BufTy).Contents (Elt F)) ((broadcastInDim S100000x128 ![] bcast_S_S100000x128 : (⟨S_, .f32⟩ : BufTy).Contents (Elt F) → (⟨S100000x128, .f32⟩ : BufTy).Contents (Elt F)) alpha) (shifted A bias)

/-- Bias, then the parametric rectifier, then the leading unit axis. -/
def biasedPRelu (A : (⟨S100000x128, .f32⟩ : BufTy).Contents (Elt F)) (bias : (⟨S128, .f32⟩ : BufTy).Contents (Elt F)) (alpha : (⟨S_, .f32⟩ : BufTy).Contents (Elt F)) : (⟨S1x100000x128, .f32⟩ : BufTy).Contents (Elt F) :=
  (broadcastInDim S1x100000x128 ![1, 2] bcast_S100000x128_S1x100000x128_1_2 : (⟨S100000x128, .f32⟩ : BufTy).Contents (Elt F) → (⟨S1x100000x128, .f32⟩ : BufTy).Contents (Elt F))
    ((select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)) (nonneg A bias) (shifted A bias) (scaled A bias alpha))

end Generic

/-- Entry (n, o) of the repeated bias is entry o of the bias. -/
theorem biasRows_apply (bias : (⟨S128, .f32⟩ : BufTy).Contents (Elt Ideal)) (n : Fin 100000) (o : Fin 128) :
    biasRows (F := Ideal) bias (ix2 n o) = bias (ix1 o) := by
  unfold biasRows
  rw [broadcastInDim_apply _ bcast_S1x128_S100000x128_0_1 _ (ix2 n o) (ix2 (n0 := 1) (n1 := 128) ⟨0, Nat.one_pos⟩ o) (fun a => match a with
    | ⟨0, _⟩ => by show 0 = if (1 : Nat) = 1 then 0 else n.val; rw [if_pos rfl]
    | ⟨1, _⟩ => by show o.val = if (128 : Nat) = 1 then 0 else o.val; rw [if_neg (by decide)])]
  exact broadcastInDim_apply _ bcast_S128_S1x128_1 bias _ (ix1 o) (fun a => match a with
    | ⟨0, _⟩ => by show o.val = if (128 : Nat) = 1 then 0 else o.val; rw [if_neg (by decide)])

/-- Every entry of a scalar spread over the array is the scalar. -/
theorem spread_apply (y : (⟨S_, .f32⟩ : BufTy).Contents (Elt Ideal)) (j : S100000x128.Idx) :
    broadcastInDim S100000x128 ![] bcast_S_S100000x128 y j = y ix0 :=
  broadcastInDim_apply _ bcast_S_S100000x128 y j ix0 (fun a => a.elim0)

/-- Entry (z, n, o) of an array given a leading unit axis is its entry (n, o). -/
theorem unitAxis_apply (y : (⟨S100000x128, .f32⟩ : BufTy).Contents (Elt Ideal)) (z : Fin 1) (n : Fin 100000) (o : Fin 128) :
    broadcastInDim S1x100000x128 ![1, 2] bcast_S100000x128_S1x100000x128_1_2 y (ix3 z n o) = y (ix2 n o) :=
  broadcastInDim_apply _ bcast_S100000x128_S1x100000x128_1_2 y (ix3 z n o) (ix2 n o) (fun a => match a with
    | ⟨0, _⟩ => by show n.val = if (100000 : Nat) = 1 then 0 else n.val; rw [if_neg (by decide)]
    | ⟨1, _⟩ => by show o.val = if (128 : Nat) = 1 then 0 else o.val; rw [if_neg (by decide)])

/-- Entry (z, n, o) of the result: with x the aggregated entry (n, o) plus bias entry o, it is x if x ≥ 0 and
    alpha · x otherwise. -/
theorem biasedPRelu_apply (A : (⟨S100000x128, .f32⟩ : BufTy).Contents (Elt Ideal)) (bias : (⟨S128, .f32⟩ : BufTy).Contents (Elt Ideal))
    (alpha : (⟨S_, .f32⟩ : BufTy).Contents (Elt Ideal)) (z : Fin 1) (n : Fin 100000) (o : Fin 128) :
    biasedPRelu (F := Ideal) A bias alpha (ix3 z n o)
      = Scalar.select
          (FloatOps.cmpf (F := Ideal) (φ := .f32) .oge (FloatOps.addf (F := Ideal) (φ := .f32) (A (ix2 n o)) (bias (ix1 o))) (FloatOps.ofBits (F := Ideal) .f32 0x00000000#32))
          (FloatOps.addf (F := Ideal) (φ := .f32) (A (ix2 n o)) (bias (ix1 o)))
          (FloatOps.mulf (F := Ideal) (φ := .f32) (alpha ix0) (FloatOps.addf (F := Ideal) (φ := .f32) (A (ix2 n o)) (bias (ix1 o)))) := by
  unfold biasedPRelu nonneg scaled shifted
  rw [unitAxis_apply]
  show Scalar.select
      (FloatOps.cmpf (F := Ideal) (φ := .f32) .oge (FloatOps.addf (F := Ideal) (φ := .f32) (A (ix2 n o)) (biasRows (F := Ideal) bias (ix2 n o)))
        (broadcastInDim S100000x128 ![] bcast_S_S100000x128 (constant (F := Ideal) S_ .f32 0x00000000#32) (ix2 n o)))
      (FloatOps.addf (F := Ideal) (φ := .f32) (A (ix2 n o)) (biasRows (F := Ideal) bias (ix2 n o)))
      (FloatOps.mulf (F := Ideal) (φ := .f32) (broadcastInDim S100000x128 ![] bcast_S_S100000x128 alpha (ix2 n o))
        (FloatOps.addf (F := Ideal) (φ := .f32) (A (ix2 n o)) (biasRows (F := Ideal) bias (ix2 n o)))) = _
  rw [biasRows_apply, spread_apply, spread_apply]
  rfl

end Cert.Gcn

end
-- ==== Proof.TailStretch.lean ====
/-
  The operations after the region, first stretch: from any buffer contents, the buffer that receives the sum holds the
  aggregation of the region's array plus the bias; the buffer that receives the test holds where that sum is ≥ 0; the
  buffer that receives the product holds alpha times that sum.  Each is read off the stretch's operations composed in
  order; the aggregation is the one function of Proof/Tail.
-/
import proofs.«171808_j18949395709960_2_alg».proof.Proof.Gen.KernelIdeal.Launch
import proofs.«171808_j18949395709960_2_alg».proof.Proof.Tail
import Idealize.ShloMosaic.Lib.StableHlo.Run

set_option maxRecDepth 16384

noncomputable section

namespace Cert.Gcn

open Idealize.ShloMosaic Idealize.ShloMosaic.TcCoe Idealize.SL.Sem
open Cert.KernelIdeal Cert.KernelIdeal.Gen

set_option maxHeartbeats 2000000 in
/-- After the first stretch, the sum buffer holds the aggregation of the region's array plus the bias. -/
theorem stretch_shifted (W : Valuation τ sig (Elt Ideal)) :
    StableHlo.after (hostOps1 (F := Ideal)) W (Proc.devRef .tc main_v19)
      = shifted (F := Ideal) (neighbourSum (F := Ideal) (W (Proc.devRef .tc main_v2)) (W (Proc.devRef .tc main_arg1)) (W (Proc.devRef .tc main_arg2))
            (W (Proc.devRef .tc main_arg3))) (W (Proc.devRef .tc main_arg5)) := by
  simp only [hostOps1]
  after_results_simp
  simp only [shifted, neighbourSum, wrappedSources, biasRows]

set_option maxHeartbeats 2000000 in
/-- After the first stretch, the test buffer holds where that sum is ≥ 0. -/
theorem stretch_nonneg (W : Valuation τ sig (Elt Ideal)) :
    StableHlo.after (hostOps1 (F := Ideal)) W (Proc.devRef .tc main_v21)
      = nonneg (F := Ideal) (neighbourSum (F := Ideal) (W (Proc.devRef .tc main_v2)) (W (Proc.devRef .tc main_arg1)) (W (Proc.devRef .tc main_arg2))
            (W (Proc.devRef .tc main_arg3))) (W (Proc.devRef .tc main_arg5)) := by
  simp only [hostOps1]
  after_results_simp
  simp only [nonneg, shifted, neighbourSum, wrappedSources, biasRows]

set_option maxHeartbeats 2000000 in
/-- After the first stretch, the product buffer holds alpha times that sum. -/
theorem stretch_scaled (W : Valuation τ sig (Elt Ideal)) :
    StableHlo.after (hostOps1 (F := Ideal)) W (Proc.devRef .tc main_v23)
      = scaled (F := Ideal) (neighbourSum (F := Ideal) (W (Proc.devRef .tc main_v2)) (W (Proc.devRef .tc main_arg1)) (W (Proc.devRef .tc main_arg2))
            (W (Proc.devRef .tc main_arg3))) (W (Proc.devRef .tc main_arg5)) (W (Proc.devRef .tc main_arg6)) := by
  simp only [hostOps1]
  after_results_simp
  simp only [scaled, shifted, neighbourSum, wrappedSources, biasRows]

end Cert.Gcn

end
-- ==== Proof.TailChain.lean ====
/-
  The operations after the region, all three stretches: the selection between the sum and its multiple by alpha, given
  its leading unit axis.  The second stretch is the one selection (the call of the rectifier's `where`), reading the
  three buffers the first stretch wrote; the third adds the unit axis.  Running stretches one after the other is running
  each from what the previous leaves.
-/
import proofs.«171808_j18949395709960_2_alg».proof.Proof.Gen.KernelIdeal.Launch
import proofs.«171808_j18949395709960_2_alg».proof.Proof.Tail
import proofs.«171808_j18949395709960_2_alg».proof.Proof.TailStretch
import Idealize.ShloMosaic.Lib.StableHlo.Run

set_option maxRecDepth 16384

noncomputable section

namespace Cert.Gcn

open Idealize.ShloMosaic Idealize.ShloMosaic.TcCoe Idealize.SL.Sem
open Cert.KernelIdeal Cert.KernelIdeal.Gen

/-- Running two stretches of operations one after the other is running the second from what the first leaves. -/
theorem after_append (l1 l2 : List (HloOp τ sig (Elt Ideal))) (W : Valuation τ sig (Elt Ideal)) :
    StableHlo.after (l1 ++ l2) W = StableHlo.after l2 (StableHlo.after l1 W) := by
  induction l1 generalizing W with
  | nil => rfl
  | cons op ops ih => simp only [List.cons_append, StableHlo.after_cons]; exact ih _

/-- The last two stretches, from buffer contents whose sum, test and product buffers hold `shifted`, `nonneg` and
    `scaled` of some aggregated array: the result is the activation of that array. -/
theorem tail_of_aux (W1 : Valuation τ sig (Elt Ideal)) (N : (⟨S100000x128, .f32⟩ : BufTy).Contents (Elt Ideal))
    (b : (⟨S128, .f32⟩ : BufTy).Contents (Elt Ideal)) (al : (⟨S_, .f32⟩ : BufTy).Contents (Elt Ideal))
    (h19 : W1 (Proc.devRef .tc main_v19) = shifted (F := Ideal) N b)
    (h21 : W1 (Proc.devRef .tc main_v21) = nonneg (F := Ideal) N b)
    (h23 : W1 (Proc.devRef .tc main_v23) = scaled (F := Ideal) N b al) :
    StableHlo.after (hostOps1_1 (F := Ideal) ++ (hostOps1_2 ++ [])) W1 (Proc.devRef .tc main_v25)
      = biasedPRelu (F := Ideal) N b al := by
  simp only [hostOps1_1, hostOps1_2, List.cons_append, List.nil_append, List.append_nil]
  after_results_simp
  rw [h19, h21, h23]
  unfold biasedPRelu
  rfl

/-- The three stretches after the region, from any buffer contents. -/
theorem tail_of (W : Valuation τ sig (Elt Ideal)) :
    StableHlo.after (hostOps1 (F := Ideal) ++ (hostOps1_1 ++ (hostOps1_2 ++ []))) W (Proc.devRef .tc main_v25)
      = biasedPRelu (F := Ideal) (neighbourSum (F := Ideal) (W (Proc.devRef .tc main_v2)) (W (Proc.devRef .tc main_arg1)) (W (Proc.devRef .tc main_arg2))
            (W (Proc.devRef .tc main_arg3))) (W (Proc.devRef .tc main_arg5)) (W (Proc.devRef .tc main_arg6)) :=
  (congrFun (after_append (hostOps1 (F := Ideal)) (hostOps1_1 ++ (hostOps1_2 ++ [])) W) (Proc.devRef .tc main_v25)).trans
    (tail_of_aux (StableHlo.after (hostOps1 (F := Ideal)) W) _ _ _ (stretch_shifted W) (stretch_nonneg W) (stretch_scaled W))

end Cert.Gcn

end
-- ==== Proof.KernelResult.lean ====
/-
  What the whole tiled program returns.

  After the region, the program applies the aggregation and the activation to the array the region wrote and to the
  edge lists, the edge weights, the bias and alpha as launched (nothing before or after the region writes an argument).
  The region's array is the whole product of the first argument, its leading unit axis dropped, with the transposed
  weight matrix; so the returned array is the activation of the aggregation of that product.
-/
import proofs.«171808_j18949395709960_2_alg».proof.Proof.ProjectedArray
import proofs.«171808_j18949395709960_2_alg».proof.Proof.Tail
import proofs.«171808_j18949395709960_2_alg».proof.Proof.TailChain
import Idealize.ShloMosaic.Lib.StableHlo.Run

set_option maxRecDepth 16384

noncomputable section

namespace Cert.Gcn

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The operations after the region compute the activation of the aggregation of the region's output array. -/
theorem tail_result (c : Dev nD) :
    Pipeline.afterTail₀ cfgs (dats m) 0 (V0 m) [hostOps1, hostOps1_1, hostOps1_2] c main_v25
      = biasedPRelu (F := Ideal)
          (neighbourSum (F := Ideal) ((dats m 0 c).arrAt 2 cfg0.N) (m ((c : Thread nD τ).loc main_arg1)) (m ((c : Thread nD τ).loc main_arg2))
            (m ((c : Thread nD τ).loc main_arg3)))
          (m ((c : Thread nD τ).loc main_arg5)) (m ((c : Thread nD τ).loc main_arg6)) := by
  have eF : Pipeline.withArrays (cfgs 0).spec c (V0 m c) (fun w => (dats m 0 c).arrAt w (cfgs 0).N) (Proc.devRef .tc main_v2)
      = (dats m 0 c).arrAt 2 cfg0.N :=
    Pipeline.withArrays_arr spec0 launch0.win.arr_inj c _ _ 2
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  have e5 : Pipeline.withArrays (cfgs 0).spec c (V0 m c) (fun w => (dats m 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans (V_main_arg5 m c)
  have e6 : Pipeline.withArrays (cfgs 0).spec c (V0 m c) (fun w => (dats m 0 c).arrAt w (cfgs 0).N) (Proc.devRef .tc main_arg6)
      = m ((c : Thread nD τ).loc main_arg6) :=
    (Pipeline.withArrays_of_ne _ c (V0 m c) _ main_arg6 (by exact (by decide : ∀ w, Pipeline.arrRef spec0 w ≠ main_arg6))).trans (V_main_arg6 m c)
  unfold Pipeline.afterTail₀
  refine (tail_of (Pipeline.withArrays (cfgs 0).spec c (V0 m c) fun w => (dats m 0 c).arrAt w (cfgs 0).N)).trans ?_
  rw [eF, e1, e2, e3, e5, e6]

/-- Every weakly fair execution of the tiled program terminates with its result at the activation of the aggregation of
    the product of the launched arguments, and with the arguments unchanged. -/
theorem kernel_run : θ_run defs (onTc (τ := τ) (main (F := Ideal))) ⟨m, fun _ => 0, ρ⟩ (fun r => ∀ c : Dev nD,
      r.2.mem ((c.tc : Thread nD τ).loc main_v25)
        = biasedPRelu (F := Ideal)
            (neighbourSum (F := Ideal)
              (rowsProduct 100000
                (shapeCast S100000x256 (m ((c : Thread nD τ).loc main_arg0)) shapeCasts_S1x100000x256_S100000x256)
                (transpose S256x128 [1, 0] (m ((c : Thread nD τ).loc main_arg4)) transposes_S128x256_S256x128_1_0))
              (m ((c : Thread nD τ).loc main_arg1)) (m ((c : Thread nD τ).loc main_arg2)) (m ((c : Thread nD τ).loc main_arg3)))
            (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h c).2 main_v25 (Pipeline.mem_restRefs_of main_v25 (by decide) (by decide))).trans
        ((tail_result m c).trans (by rw [productArray m c, leftArray m c, rightArray m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.Gcn

end
-- ==== Proof.Bridge.lean ====
/-
  The two programs compute the same array.

  The reference contracts the first argument [1, 100000, 256] with the weight matrix [128, 256] over their last axes and
  drops the leading unit axis: entry (n, o) is the sum over k of seq(0, n, k) · W(o, k).  The tiled program multiplies the
  first argument with its unit axis dropped by the transposed weights: entry (n, o) is the sum over k of seq'(n, k) · Wᵗ(k, o)
  with seq'(n, k) = seq(0, n, k) and Wᵗ(k, o) = W(o, k).  These are the same 256 products in the same positions, so the
  projected features agree (`projection_eq`) — with no appeal to finiteness, since nothing is distributed or cancelled.

  Both programs then apply the same aggregation to the features (`neighbourSum_eq`: the two texts are one function),
  and the same bias and rectifier entry by entry — the reference after giving the aggregated array its leading unit
  axis, the tiled program before; entry (0, n, o) reads entry (n, o) either way (`result_eq`).
-/
import proofs.«171808_j18949395709960_2_alg».proof.Proof.Projection
import proofs.«171808_j18949395709960_2_alg».proof.Proof.Tail
import proofs.«171808_j18949395709960_2_alg».proof.Proof.Gen.ReferenceIdeal.Read

noncomputable section

namespace Cert.Gcn

open Idealize.ShloMosaic Idealize.ShloMosaic.ValueIdx Cert.ReferenceIdeal.Read

/-- The projected features agree: the reference's contraction with the unit axis dropped is the product of the
    first argument, unit axis dropped, with the transposed weights. -/
theorem projection_eq (x0 : (⟨Cert.ReferenceIdeal.S1x100000x256, .f32⟩ : BufTy).Contents (Elt Ideal))
    (x4 : (⟨Cert.ReferenceIdeal.S128x256, .f32⟩ : BufTy).Contents (Elt Ideal)) :
    rowsProduct 100000 (shapeCast Cert.KernelIdeal.S100000x256 x0 Cert.KernelIdeal.Facts₀.shapeCasts_S1x100000x256_S100000x256)
        (transpose Cert.KernelIdeal.S256x128 [1, 0] x4 Cert.KernelIdeal.Facts₀.transposes_S128x256_S256x128_1_0)
      = val_main_v1 (F := Ideal) x0 x4 := by
  funext i
  obtain ⟨n, o, rfl⟩ : ∃ (n : Fin 100000) (o : Fin 128), i = ix2 n o := ⟨i 0, i 1, eq_ix2 i⟩
  rw [rowsProduct_apply, val_main_v1_apply, val_main_v0_apply]
  refine Finset.sum_congr rfl fun k _ => ?_
  have hl : shapeCast Cert.KernelIdeal.S100000x256 x0 Cert.KernelIdeal.Facts₀.shapeCasts_S1x100000x256_S100000x256 (ix2 n k)
      = x0 (ix3 (n0 := 1) ⟨0, Nat.one_pos⟩ n k) :=
    shapeCast_apply x0 _ (ix2 n k) (ix3 (n0 := 1) ⟨0, Nat.one_pos⟩ n k) (by
      rewrite [Shape.rowMajor_val_three, Shape.rowMajor_val_two]
      show (0 * 100000 + n.val) * 256 + k.val = n.val * 256 + k.val
      omega)
  have hr : transpose Cert.KernelIdeal.S256x128 [1, 0] x4 Cert.KernelIdeal.Facts₀.transposes_S128x256_S256x128_1_0 (ix2 k o) = x4 (ix2 o k) :=
    transpose_apply [1, 0] x4 _ (ix2 k o) (ix2 o k) (fun b => match b with
      | ⟨0, _⟩ => rfl
      | ⟨1, _⟩ => rfl)
  have il : lidx_main_v0 (idx_main_v1 (ix2 n o)) k = ix3 (n0 := 1) ⟨0, Nat.one_pos⟩ n k := funext fun a => Fin.ext (by
    have hn : n.val < 100000 := n.isLt
    have ho : o.val < 128 := o.isLt
    match a with
    | ⟨0, _⟩ => rfl
    | ⟨1, _⟩ => show (n.val * 128 + o.val) / 128 % 100000 = n.val; omega
    | ⟨2, _⟩ => rfl)
  have ir : ridx_main_v0 (idx_main_v1 (ix2 n o)) k = ix2 o k := funext fun a => Fin.ext (by
    have hn : n.val < 100000 := n.isLt
    have ho : o.val < 128 := o.isLt
    match a with
    | ⟨0, _⟩ => show (n.val * 128 + o.val) % 128 = o.val; omega
    | ⟨1, _⟩ => rfl)
  rw [hl, hr, il, ir]

/-- Both programs aggregate the features alike: the two texts are one function of the features, the edge lists and
    the edge weights. -/
theorem neighbourSum_eq (x0 : (⟨Cert.ReferenceIdeal.S1x100000x256, .f32⟩ : BufTy).Contents (Elt Ideal))
    (x1 x2 : (⟨Cert.ReferenceIdeal.S1600000, .i32⟩ : BufTy).Contents (Elt Ideal)) (x3 : (⟨Cert.ReferenceIdeal.S1600000, .f32⟩ : BufTy).Contents (Elt Ideal))
    (x4 : (⟨Cert.ReferenceIdeal.S128x256, .f32⟩ : BufTy).Contents (Elt Ideal)) :
    neighbourSum (F := Ideal) (val_main_v1 (F := Ideal) x0 x4) x1 x2 x3 = val_main_v14 (F := Ideal) x0 x1 x2 x3 x4 := by
  unfold neighbourSum val_main_v14 val_main_v11 val_main_v8
  generalize val_main_v1 (F := Ideal) x0 x4 = f
  rfl

/-- The two programs' results are one array. -/
theorem result_eq (x0 : (⟨Cert.ReferenceIdeal.S1x100000x256, .f32⟩ : BufTy).Contents (Elt Ideal))
    (x1 x2 : (⟨Cert.ReferenceIdeal.S1600000, .i32⟩ : BufTy).Contents (Elt Ideal)) (x3 : (⟨Cert.ReferenceIdeal.S1600000, .f32⟩ : BufTy).Contents (Elt Ideal))
    (x4 : (⟨Cert.ReferenceIdeal.S128x256, .f32⟩ : BufTy).Contents (Elt Ideal)) (x5 : (⟨Cert.ReferenceIdeal.S128, .f32⟩ : BufTy).Contents (Elt Ideal))
    (x6 : (⟨Cert.ReferenceIdeal.S_, .f32⟩ : BufTy).Contents (Elt Ideal)) :
    biasedPRelu (F := Ideal)
        (neighbourSum (F := Ideal)
          (rowsProduct 100000 (shapeCast Cert.KernelIdeal.S100000x256 x0 Cert.KernelIdeal.Facts₀.shapeCasts_S1x100000x256_S100000x256)
            (transpose Cert.KernelIdeal.S256x128 [1, 0] x4 Cert.KernelIdeal.Facts₀.transposes_S128x256_S256x128_1_0))
          x1 x2 x3)
        x5 x6
      = val_main_v23 (F := Ideal) x0 x1 x2 x3 x4 x5 x6 := by
  rw [projection_eq, neighbourSum_eq]
  funext i
  obtain ⟨z, n, o, rfl⟩ : ∃ (z : Fin 1) (n : Fin 100000) (o : Fin 128), i = ix3 z n o := ⟨i 0, i 1, i 2, eq_ix3 i⟩
  have i15 : idx_main_v15 (ix3 z n o) = ix2 n o := funext fun a => Fin.ext (by
    match a with
    | ⟨0, _⟩ => rfl
    | ⟨1, _⟩ => rfl)
  have i16 : idx_main_v16 (idx_main_v17 (ix3 z n o)) = ix1 o := funext fun a => Fin.ext (by
    match a with
    | ⟨0, _⟩ => rfl)
  have i21 : idx_main_v21 (ix3 z n o) = ix0 := funext fun a => a.elim0
  rw [biasedPRelu_apply, val_main_v23_apply, val_main_v20_apply, val_main_v22_apply, val_main_v18_apply, val_main_v15_apply,
    val_main_v17_apply, val_main_v16_apply, val_main_v19_apply, val_main_cst_1_apply, val_main_v21_apply, i15, i16, i21]

end Cert.Gcn

end
-- ==== Proof.lean ====
/-
  A graph-convolution layer: linear projection, weighted neighbour aggregation, bias and parametric rectifier.

  Both programs take node features seq [1, 100000, 256], 1600000 edges (source, destination, weight), a weight matrix
  W [128, 256], a bias [128] and a scalar alpha, and return an array [1, 100000, 128].

  The tiled program computes the projection seq[0] · Wᵗ in ten blocks of 10000 rows, each block a product of the block's
  rows with the whole transposed matrix accumulated from zero, with changes of float format on the way in and out; on
  extended reals those changes are the identity, so the ten blocks are the ten row-blocks of one whole product
  (Proof/BlockProduct, Proof/ProjectedArray).  The reference computes the same projection as one contraction over the
  last axes of seq and W.  Entry (n, o) is, in both, the sum over the 256 shared positions of seq(0, n, k) · W(o, k)
  (Proof/Bridge, `projection_eq`): the same products, summed in a commutative monoid, so no finiteness is used.

  After the projection both programs fetch each edge's source row, scale it by the edge weight and add it into the
  destination row of a zero array — the same aggregation, carried as one function (Proof/Tail, `neighbourSum`) —, add
  the bias and replace every entry x that is not ≥ 0 by alpha · x.  The reference gives the aggregated array its leading
  unit axis before the bias and the rectifier, the tiled program after; entry by entry this makes no difference
  (Proof/Bridge, `result_eq`).

  The three programs' runs (termination, no fault, arguments unchanged) are the generated frames and the generated
  reference run; the tiled program's run is re-posted at its result in Proof/KernelResult.  The idealized tiled program is
  the printed program's own text (no rewrite), so `preserves` has nothing to show.
-/
import proofs.«171808_j18949395709960_2_alg».proof.Defs
import proofs.«171808_j18949395709960_2_alg».proof.Proof.Gen.Kernel
import proofs.«171808_j18949395709960_2_alg».proof.Proof.Gen.Kernel.Frame
import proofs.«171808_j18949395709960_2_alg».proof.Proof.Gen.KernelIdeal
import proofs.«171808_j18949395709960_2_alg».proof.Proof.Gen.KernelIdeal.Frame
import proofs.«171808_j18949395709960_2_alg».proof.Proof.Gen.ReferenceIdeal
import proofs.«171808_j18949395709960_2_alg».proof.Proof.Gen.Pre_finite_inputs
import proofs.«171808_j18949395709960_2_alg».proof.Proof.Gen.ReferenceIdeal.Run
import proofs.«171808_j18949395709960_2_alg».proof.Proof.Gen.ReferenceIdeal.Read
import proofs.«171808_j18949395709960_2_alg».proof.Proof.KernelResult
import proofs.«171808_j18949395709960_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end at the activation of the aggregation of the product of
    the arguments: the tiled program by its run, the reference by its run and `result_eq`. -/
theorem algebraic : Cert.algebraic_KernelIdeal_ReferenceIdeal := by
  intro m ρ m' ρ' _ hagree
  refine ⟨_, Cert.Gcn.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2.1, (hagree c).2.2.1, (hagree c).2.2.2.1, (hagree c).2.2.2.2.1, (hagree c).2.2.2.2.2.1, (hagree c).2.2.2.2.2.2]
  exact (Cert.Gcn.result_eq _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
